-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .bf16 = 32 ∨ (Rect.block (s := S8192x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .bf16 = 32 ∨ (Rect.block (s := S8192x4096) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KBNorm.lean ====
/-
  Region 0, the row normalisation: each grid point t loads rows 256 t … 256 t + 255 of the argument x (a whole
  [256, 4096] block), and stores into the output block the rows scaled by the reciprocal of their Euclidean norm plus
  epsilon. Stated at a parameter V, the buffer contents when the region is entered: what the output's staging buffer
  holds after the body (the one whole-block store), the body's triple, the pipeline's proof data and the body obligation
  at every grid point.
-/
import proofs.«152050_j33732673143833_2_alg».proof.Proof.Gen.Kernel.Launch
import proofs.«152050_j33732673143833_2_alg».proof.Proof.Gen.Kernel.Skeleton
import proofs.«152050_j33732673143833_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one rectangle: the whole block -/

abbrev r0_0 : Rect S256x4096 := Rect.unit (s := S256x4096) ![0, 0] S256x4096.size inb_S256x4096_S256x4096_0_0

/-- The output's staging buffer after the body: the one store of the scaled rows, over the whole block. -/
def out0_1 (x0 : Vec F S256x4096 .f32) : Vec F S256x4096 .bf16 :=
  View.canon [⟨r0_0, k0_pay1 (View.ld x0 r0_0)⟩]

/-- The store covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-! ## The body's triple -/

set_option maxHeartbeats 1000000 in
/-- On whole staging memrefs, the input's at contents x0 and the output's at anything, the body runs to the continuation
    holding the input's as it was and the output's at the scaled rows of x0. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__l2norm_kernel i arg1 harg1 arg2 harg2) K := by
  simp only [cc0__l2norm_kernel_eq_skeleton]; unfold cc0__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the normalisation pipeline on core c: the arrays as the region finds them; after the body at point t
    the input's buffer at its block and the output's at the scaled rows of that block; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the triple applies; the invariant and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBRun.lean ====
/-
  The whole program's run: the normalisation region, the two host operations (the weight rounded to bf16, the bias
  reshaped to a row), the matrix-product region. The buffer contents at each boundary are a fold from the launch memory:
  a region leaves its arrays at what its write-backs fold to and every other buffer as entered; a host stretch applies
  its operations. Every weakly fair execution terminates, the result array ends at the fold's value for it, and the
  three argument arrays end as launched. The second region's proof data enter as parameters with the facts the
  launch needs of them.
-/
import proofs.«152050_j33732673143833_2_alg».proof.Proof.KBNorm

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region's proof data at any entry contents, with what the launch uses of them: the arrays are the entry
    contents, full shares, nothing owed, the body obligation, and the invariant's two ends against the class's. -/
structure Region1 (F : FTy → Type) [FloatOps F] where
  dat : (V : (c : Dev nD) → (b : Ref sig .tc) → Buf (Elt F) ((c : Thread nD τ).loc b)) → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable (R1 : Region1 F)

/-! ## The buffer contents at each boundary -/

/-- Core c's buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 m ρ R1 c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ R1 c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ R1 c b
theorem hF1 (c : Dev nD) (w : Fin cfg1.W) : (R1.dat (V2 m ρ) c).arrAt w cfg1.N = V3 m ρ R1 c (Pipeline.arrRef spec1 w) :=
  (W3_arr m ρ R1 c w).symm
theorem hrest1 (c : Dev nD) : ∀ b, b ∉ Finset.univ.image (Pipeline.arrRef spec1) → V3 m ρ R1 c b = V2 m ρ c b :=
  fun b hb => W3_of_ne m ρ R1 c b fun w e => hb (Finset.mem_image.mpr ⟨w, Finset.mem_univ _, e⟩)

/-! ## The arguments end as launched -/

theorem W2_of_not_written (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))

theorem W3_main_arg0 (c : Dev nD) : W3 m ρ R1 c (Proc.devRef .tc main_arg0) = m ((c : Thread nD τ).loc main_arg0) :=
  calc W3 m ρ R1 c (Proc.devRef .tc main_arg0)
    _ = W2 m ρ c (Proc.devRef .tc main_arg0) := W3_of_ne m ρ R1 c main_arg0 (by decide)
    _ = W1 m ρ c (Proc.devRef .tc main_arg0) := W2_of_not_written m ρ c main_arg0 (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ R1 c (Proc.devRef .tc main_arg1) = m ((c : Thread nD τ).loc main_arg1) :=
  calc W3 m ρ R1 c (Proc.devRef .tc main_arg1)
    _ = W2 m ρ c (Proc.devRef .tc main_arg1) := W3_of_ne m ρ R1 c main_arg1 (by decide)
    _ = W1 m ρ c (Proc.devRef .tc main_arg1) := W2_of_not_written m ρ c main_arg1 (by decide) (by decide)
    _ = W0 m ρ c (Proc.devRef .tc main_arg1) := W1_of_ne m ρ c main_arg1 (by decide)
    _ = m ((c : Thread nD τ).loc main_arg1) := rfl
theorem W3_main_arg2 (c : Dev nD) : W3 m ρ R1 c (Proc.devRef .tc main_arg2) = m ((c : Thread nD τ).loc main_arg2) :=
  calc W3 m ρ R1 c (Proc.devRef .tc main_arg2)
    _ = W2 m ρ c (Proc.devRef .tc main_arg2) := W3_of_ne m ρ R1 c main_arg2 (by decide)
    _ = W1 m ρ c (Proc.devRef .tc main_arg2) := W2_of_not_written m ρ c main_arg2 (by decide) (by decide)
    _ = W0 m ρ c (Proc.devRef .tc main_arg2) := W1_of_ne m ρ c main_arg2 (by decide)
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => R1.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ R1 c) ∗ ∃ r, prngReg c r)

/-! ## The regions as segments -/

set_option backward.isDefEq.respectTransparency.types false in
/-- The normalisation region over the thread state: entered from every unscoped buffer at the launch contents, left at W1. -/
def reg0 : Pipeline.RegionSeg (pcfgs (F := F)) adm (pdats m ρ R1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ R1) launch0.win launch0.arr_whole c
      ((pdats m ρ R1 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ R1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ R1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ R1) ((pdats m ρ R1 0 c).share_full fun _ => rfl)
      (V0 m ρ c) (V1 m ρ c) ((pdats m ρ R1 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region over the thread state: entered from every unscoped buffer at W2, left at W3. -/
def reg1 : Pipeline.RegionSeg (pcfgs (F := F)) adm (pdats m ρ R1) () defs₀ 𝒱₀ L lv 1 where
  win := launch1.win.to₀
  block_pos := launch1.block_pos
  stage_whole := launch1.stage_whole
  K := PEmpty
  osem k := k.elim
  ho := Pipeline.OwnSemFacts.none _
  hbody c := (R1.hbody (V2 m ρ) c).loose
  hwaits := Pipeline.hwaits_of_owed_zero _ _ _ _ L lv 1 fun c t => R1.howed (V2 m ρ) c t
  pre c := iprop(StableHlo.held (c : Thread nD τ) (Pipeline.ucRefs τ sig) (W2 m ρ c) ∗ R c)
  post c := iprop(Tₙ m ρ R1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ R1) launch1.win launch1.arr_whole c
      ((pdats m ρ R1 1 c).share_full fun w => R1.hq (V2 m ρ) c w) (V2 m ρ c) fun w => R1.hA (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have h0 : (pdats m ρ R1 1 c).owed 0 = 0 := R1.howed (V2 m ρ) c 0
      have hr : (pdats m ρ R1 1 c).recorded 0 = Set.univ := R1.hrec (V2 m ρ) c 0
      unfold Pipeline.Dat.owesAt Pipeline.owesWithin Pipeline.Dat.bound; rw [h0, hr]
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (R1.hin (V2 m ρ) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (R1.hout (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ R1) ((pdats m ρ R1 1 c).share_full fun w => R1.hq (V2 m ρ) c w)
      (V2 m ρ c) (V3 m ρ R1 c) ((pdats m ρ R1 1 c).arrAt · cfg1.N) (hF1 m ρ R1 c) (hrest1 m ρ R1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    have h0 : (pdats m ρ R1 1 c).owed (Fin.last (Pipeline.pin (pcfgs (F := F)) adm 1).N) = 0 := R1.howed (V2 m ρ) c _
    unfold Pipeline.Dat.owesAt Pipeline.owesWithin; rw [h0]
    icases HO with ⟨%W, -, HO⟩; iexists W; iexact HO

/-! ## The program as segments, and the launch -/

abbrev segs : List (Pipeline.Seg (pcfgs (F := F)) adm (pdats m ρ R1) () defs₀ 𝒱₀ L lv) :=
  [ .region (reg0 m ρ R1),
    .host (hseg hostOps1 hostOps1_sub hostOps1_fresh (W1 m ρ)),
    .region (reg1 m ρ R1) ]
theorem main_run (c : Dev nD) : main (F := F) c = Pipeline.Seg.run (segs m ρ R1) := (main_chain c).trans (by chain_rfl)

set_option backward.isDefEq.respectTransparency.types false in
/-- Every weakly fair execution of the program from memory m with zero counters terminates, nothing faulting, and every
    final state holds each unscoped buffer at the last boundary's contents: in particular the result array at W3's value
    and each argument as launched. -/
theorem run_main : θ_run defs (onTc (τ := τ) (main (F := F))) ⟨m, fun _ => 0, ρ⟩ (fun r => ∀ c : Dev nD,
      r.2.mem ((c.tc : Thread nD τ).loc main_v3) = W3 m ρ R1 c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ R1) () cellOf_inj emb₁ defs₀ 𝒱₀ L lv m ρ main (segs m ρ R1)
    (fun c Q => by rw [main_run m ρ R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ R1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ R1 c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ R1 c) s')
      isplitl [Hh] <;> iassumption)
    (hQ := fun s h c =>
      ⟨h c _ (mem_uc main_v3 (by decide)),
       (h c _ (mem_uc main_arg0 (by decide))).trans (W3_main_arg0 m ρ R1 c),
       (h c _ (mem_uc main_arg1 (by decide))).trans (W3_main_arg1 m ρ R1 c),
       (h c _ (mem_uc main_arg2 (by decide))).trans (W3_main_arg2 m ρ R1 c)⟩)

include R1 in
/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ R1)

end Cert.Kernel.Hand

end
-- ==== Proof.KBFfnRuns.lean ====
/- The second pallas_call (the tiled matmul with bias and ReLU), body side, at the buffer contents V
   found when the call is entered: what the three case runs share. -/
import proofs.«152050_j33732673143833_2_alg».proof.Proof.Gen.Kernel.Launch
import proofs.«152050_j33732673143833_2_alg».proof.Proof.Gen.Kernel.Skeleton
import proofs.«152050_j33732673143833_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the normalized rows' block (i,k)) holds its block at every point, for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weights' block (j,k)) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias' block (0,j)), fetched only where j changes: where it is not fetched its block index
    is the one of the point before, so the buffer still holds this point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the grid point -/

/-- k = 0, as the body computes it. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- k = 7, as the body computes it. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k = 0 (and k ≠ 7) nothing is stored into output 3 and its block is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- Where 0 < k < 7 likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 7 output 3 is stored. -/
theorem liveAt1_3_C : ∀ t : Fin cfg1.N, ¬cond1_0 (grid1.coords t) → cond1_1 (grid1.coords t) → cfg1.idle 3 (grid1.coords t) = false := by decide +kernel

/-! ## The staging memrefs and the accumulator -/

/-- One staging buffer of output window 3, through which its contents are stated. -/
abbrev VO1_3 : View sig .tc .vmem S2048x1024 .f32 := (Memref.whole cc1_stg3_0 : Memref sig .tc .vmem S2048x1024 .f32).view
/-- Each window's current staging memref at point `t`, and its wholeness. -/
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S2048x1024 .f32 := Memref.whole cc1_scratch0
abbrev VS1_0 : View sig .tc .vmem S2048x1024 .f32 := scM1_0.view

/-- The invariant the call is entered with: the first call's four staging buffers at some contents, the accumulator
    owned at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KBFfnRunA.lean ====
/- The matmul body where k = 0 (the accumulator is zeroed, then the first product added; nothing stored to the output):
   its run on whole staging memrefs, the pieces the accumulator ends with being the witness. -/
import proofs.«152050_j33732673143833_2_alg».proof.Proof.KBFfnRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case A (k = 0, k ≠ 7). On whole staging memrefs — the three inputs' at contents `x0 x1 x2`, the output's at contents
    `xi3` handed back untouched, the accumulator at anything — the body runs to the continuation holding the inputs and the
    output as they were and the accumulator with its pieces `LS0` written. -/
noncomputable def kernelRun1_A (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_kernel i arg3 harg3 arg4 harg4 arg5 harg5 arg6 harg6 arg7 harg7) K } := by
  refine ⟨[], ?_, fun xi3 E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KBFfnRunB.lean ====
/- The matmul body where 0 < k < 7 (one more product added to the accumulator; nothing stored to the output). -/
import proofs.«152050_j33732673143833_2_alg».proof.Proof.KBFfnRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case B (k ≠ 0, k ≠ 7). As case A, the accumulator entered at the contents `xs0` the point before left. -/
noncomputable def kernelRun1_B (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_kernel i arg3 harg3 arg4 harg4 arg5 harg5 arg6 harg6 arg7 harg7) K } := by
  refine ⟨[], ?_, fun xi3 E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KBFfnRunC.lean ====
/- The matmul body where k = 7 (the last product added; bias added, negatives clamped to zero, stored to the output). -/
import proofs.«152050_j33732673143833_2_alg».proof.Proof.KBFfnRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case C (k ≠ 0, k = 7). The output's staging memref is entered at anything and left with its pieces `L3` written. -/
noncomputable def kernelRun1_C (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_kernel i arg3 harg3 arg4 harg4 arg5 harg5 arg6 harg6 arg7 harg7) K } := by
  refine ⟨?_, ?_, fun E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KBFfn.lean ====
/- The second pallas_call (the tiled matmul with bias and ReLU), body side: what the output's staging buffer and the
   accumulator hold point by point, the proof data at the entry contents V, and the body obligation. -/
import proofs.«152050_j33732673143833_2_alg».proof.Proof.KBFfnRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 3 (idle there and not written back): a placeholder nothing consults. -/
def out1_A_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) : Vec F S2048x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's pieces for the accumulator tile it, so they cover it. -/
theorem scover1_A_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y

/-- What case A leaves in the accumulator: its pieces read back. -/
def sout1_A_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) : Vec F S2048x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Case B stores nothing into output 3 (idle there and not written back): a placeholder nothing consults. -/
def out1_B_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) : Vec F S2048x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's pieces for the accumulator tile it, so they cover it. -/
theorem scover1_B_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y

/-- What case B leaves in the accumulator: its pieces read back. -/
def sout1_B_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) : Vec F S2048x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's pieces for output 3 tile its block, so they cover it. -/
theorem cover1_C_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y

/-- What case C leaves in output 3's staging buffer: its pieces read back. -/
def out1_C_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's pieces for the accumulator tile it, so they cover it. -/
theorem scover1_C_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y

/-- What case C leaves in the accumulator: its pieces read back. -/
def sout1_C_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) : Vec F S2048x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output's buffer and the accumulator hold after each point -/

/-- THE ACCUMULATION: (output 3's staging buffer, the accumulator) after the body at position `n`: the case the closed
    forms select there, run at the point's memrefs and input blocks, the accumulator entered at what position `n - 1` left. -/
def outsAt1 (c : Dev nD) : (n : ℕ) → n < cfg1.N → Vec F S2048x1024 .f32 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point with k = 0. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point with 0 < k < 7, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 7, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point what the call is entered with; afterwards the first call's staging buffers
    at some contents, the accumulator at what the point before left in it, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second call on core `c`: the arrays as the call finds them (`V`); after the body at point `t`
    each input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; k decides the case; the invariant hands the body the
    accumulator at what the point before left (at anything at the very first point) and takes it back at this point's
    contents; where k ≠ 7 the output's buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Hr0, Hr1, Hr2, Hr3, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr0 Hr1 Hr2 Hr3 HS0 Hg]
        · isplitl [Hr0 Hr1 Hr2 Hr3 HS0]
          · isplitl [Hr0]; · iexact Hr0
            isplitl [Hr1]; · iexact Hr1
            isplitl [Hr2]; · iexact Hr2
            isplitl [Hr3]; · iexact Hr3
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hr0, Hr1, Hr2, Hr3, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hr0 Hr1 Hr2 Hr3 HS0 Hg]
        · isplitl [Hr0 Hr1 Hr2 Hr3 HS0]
          · isplitl [Hr0]; · iexact Hr0
            isplitl [Hr1]; · iexact Hr1
            isplitl [Hr2]; · iexact Hr2
            isplitl [Hr3]; · iexact Hr3
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨Hr0, Hr1, Hr2, Hr3, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Hr0 Hr1 Hr2 Hr3 HS0 Hg]
        · isplitl [Hr0 Hr1 Hr2 Hr3 HS0]
          · isplitl [Hr0]; · iexact Hr0
            isplitl [Hr1]; · iexact Hr1
            isplitl [Hr2]; · iexact Hr2
            isplitl [Hr3]; · iexact Hr3
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Hr0, Hr1, Hr2, Hr3, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr0 Hr1 Hr2 Hr3 HS0 Hg]
        · isplitl [Hr0 Hr1 Hr2 Hr3 HS0]
          · isplitl [Hr0]; · iexact Hr0
            isplitl [Hr1]; · iexact Hr1
            isplitl [Hr2]; · iexact Hr2
            isplitl [Hr3]; · iexact Hr3
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry invariant back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, HS0⟩, Hg⟩
  isplitl [Hr0 Hr1 Hr2 Hr3 HS0]
  · isplitl [Hr0]; · iexact Hr0
    isplitl [Hr1]; · iexact Hr1
    isplitl [Hr2]; · iexact Hr2
    isplitl [Hr3]; · iexact Hr3
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.KBInst.lean ====
/-
  The matrix-product region's proof data meet what the launch needs of them; so the whole program runs, the result array
  ends at the fold's value, and the arguments end as launched.
-/
import proofs.«152050_j33732673143833_2_alg».proof.Proof.KBRun
import proofs.«152050_j33732673143833_2_alg».proof.Proof.KBFfn

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The matrix-product region's proof data, at any entry contents. -/
def region1 : Region1 F where
  dat := fun V c => dat1 V c
  hA := fun V c w => A_eq1 V c w
  hq := fun _ _ _ => rfl
  howed := fun _ _ _ => rfl
  hrec := fun _ _ _ => rfl
  hbody := fun V c => body_obligation1 V c
  hin := fun V c => hin1 V c
  hout := fun V c => hout1 V c

variable (m : (ℓ : Loc nD τ sig) → Buf (Elt F) ℓ) (ρ : Dev nD → PrngReg)

/-- Every weakly fair execution terminates; the result array ends at what the matrix-product region's write-backs fold to,
    from the entry contents the normalisation region and the host operations left; the arguments end as launched. -/
theorem run_all : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (W3_arr m ρ region1 c 3), (h c).2⟩) (run_main m ρ region1)

/-- The frame: the three argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame m ρ region1

end Cert.Kernel.Hand

end
-- ==== Proof.KINorm.lean ====
/-
  Region 0, the row normalisation: each grid point t loads rows 256 t … 256 t + 255 of the argument x (a whole
  [256, 4096] block), and stores into the output block the rows scaled by the reciprocal of their Euclidean norm plus
  epsilon. Stated at a parameter V, the buffer contents when the region is entered: what the output's staging buffer
  holds after the body (the one whole-block store), the body's triple, the pipeline's proof data and the body obligation
  at every grid point.
-/
import proofs.«152050_j33732673143833_2_alg».proof.Proof.Gen.KernelIdeal.Launch
import proofs.«152050_j33732673143833_2_alg».proof.Proof.Gen.KernelIdeal.Skeleton
import proofs.«152050_j33732673143833_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one rectangle: the whole block -/

abbrev r0_0 : Rect S256x4096 := Rect.unit (s := S256x4096) ![0, 0] S256x4096.size inb_S256x4096_S256x4096_0_0

/-- The output's staging buffer after the body: the one store of the scaled rows, over the whole block. -/
def out0_1 (x0 : Vec F S256x4096 .f32) : Vec F S256x4096 .bf16 :=
  View.canon [⟨r0_0, k0_pay1 (View.ld x0 r0_0)⟩]

/-- The store covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-! ## The body's triple -/

set_option maxHeartbeats 1000000 in
/-- On whole staging memrefs, the input's at contents x0 and the output's at anything, the body runs to the continuation
    holding the input's as it was and the output's at the scaled rows of x0. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__l2norm_kernel i arg1 harg1 arg2 harg2) K := by
  simp only [cc0__l2norm_kernel_eq_skeleton]; unfold cc0__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the normalisation pipeline on core c: the arrays as the region finds them; after the body at point t
    the input's buffer at its block and the output's at the scaled rows of that block; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the triple applies; the invariant and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRun.lean ====
/-
  The whole program's run: the normalisation region, the two host operations (the weight rounded to bf16, the bias
  reshaped to a row), the matrix-product region. The buffer contents at each boundary are a fold from the launch memory:
  a region leaves its arrays at what its write-backs fold to and every other buffer as entered; a host stretch applies
  its operations. Every weakly fair execution terminates, the result array ends at the fold's value for it, and the
  three argument arrays end as launched. The second region's proof data enter as parameters with the facts the
  launch needs of them.
-/
import proofs.«152050_j33732673143833_2_alg».proof.Proof.KINorm

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region's proof data at any entry contents, with what the launch uses of them: the arrays are the entry
    contents, full shares, nothing owed, the body obligation, and the invariant's two ends against the class's. -/
structure Region1 (F : FTy → Type) [FloatOps F] where
  dat : (V : (c : Dev nD) → (b : Ref sig .tc) → Buf (Elt F) ((c : Thread nD τ).loc b)) → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable (R1 : Region1 F)

/-! ## The buffer contents at each boundary -/

/-- Core c's buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 m ρ R1 c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ R1 c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ R1 c b
theorem hF1 (c : Dev nD) (w : Fin cfg1.W) : (R1.dat (V2 m ρ) c).arrAt w cfg1.N = V3 m ρ R1 c (Pipeline.arrRef spec1 w) :=
  (W3_arr m ρ R1 c w).symm
theorem hrest1 (c : Dev nD) : ∀ b, b ∉ Finset.univ.image (Pipeline.arrRef spec1) → V3 m ρ R1 c b = V2 m ρ c b :=
  fun b hb => W3_of_ne m ρ R1 c b fun w e => hb (Finset.mem_image.mpr ⟨w, Finset.mem_univ _, e⟩)

/-! ## The arguments end as launched -/

theorem W2_of_not_written (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))

theorem W3_main_arg0 (c : Dev nD) : W3 m ρ R1 c (Proc.devRef .tc main_arg0) = m ((c : Thread nD τ).loc main_arg0) :=
  calc W3 m ρ R1 c (Proc.devRef .tc main_arg0)
    _ = W2 m ρ c (Proc.devRef .tc main_arg0) := W3_of_ne m ρ R1 c main_arg0 (by decide)
    _ = W1 m ρ c (Proc.devRef .tc main_arg0) := W2_of_not_written m ρ c main_arg0 (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ R1 c (Proc.devRef .tc main_arg1) = m ((c : Thread nD τ).loc main_arg1) :=
  calc W3 m ρ R1 c (Proc.devRef .tc main_arg1)
    _ = W2 m ρ c (Proc.devRef .tc main_arg1) := W3_of_ne m ρ R1 c main_arg1 (by decide)
    _ = W1 m ρ c (Proc.devRef .tc main_arg1) := W2_of_not_written m ρ c main_arg1 (by decide) (by decide)
    _ = W0 m ρ c (Proc.devRef .tc main_arg1) := W1_of_ne m ρ c main_arg1 (by decide)
    _ = m ((c : Thread nD τ).loc main_arg1) := rfl
theorem W3_main_arg2 (c : Dev nD) : W3 m ρ R1 c (Proc.devRef .tc main_arg2) = m ((c : Thread nD τ).loc main_arg2) :=
  calc W3 m ρ R1 c (Proc.devRef .tc main_arg2)
    _ = W2 m ρ c (Proc.devRef .tc main_arg2) := W3_of_ne m ρ R1 c main_arg2 (by decide)
    _ = W1 m ρ c (Proc.devRef .tc main_arg2) := W2_of_not_written m ρ c main_arg2 (by decide) (by decide)
    _ = W0 m ρ c (Proc.devRef .tc main_arg2) := W1_of_ne m ρ c main_arg2 (by decide)
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => R1.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ R1 c) ∗ ∃ r, prngReg c r)

/-! ## The regions as segments -/

set_option backward.isDefEq.respectTransparency.types false in
/-- The normalisation region over the thread state: entered from every unscoped buffer at the launch contents, left at W1. -/
def reg0 : Pipeline.RegionSeg (pcfgs (F := F)) adm (pdats m ρ R1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ R1) launch0.win launch0.arr_whole c
      ((pdats m ρ R1 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ R1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ R1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ R1) ((pdats m ρ R1 0 c).share_full fun _ => rfl)
      (V0 m ρ c) (V1 m ρ c) ((pdats m ρ R1 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region over the thread state: entered from every unscoped buffer at W2, left at W3. -/
def reg1 : Pipeline.RegionSeg (pcfgs (F := F)) adm (pdats m ρ R1) () defs₀ 𝒱₀ L lv 1 where
  win := launch1.win.to₀
  block_pos := launch1.block_pos
  stage_whole := launch1.stage_whole
  K := PEmpty
  osem k := k.elim
  ho := Pipeline.OwnSemFacts.none _
  hbody c := (R1.hbody (V2 m ρ) c).loose
  hwaits := Pipeline.hwaits_of_owed_zero _ _ _ _ L lv 1 fun c t => R1.howed (V2 m ρ) c t
  pre c := iprop(StableHlo.held (c : Thread nD τ) (Pipeline.ucRefs τ sig) (W2 m ρ c) ∗ R c)
  post c := iprop(Tₙ m ρ R1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ R1) launch1.win launch1.arr_whole c
      ((pdats m ρ R1 1 c).share_full fun w => R1.hq (V2 m ρ) c w) (V2 m ρ c) fun w => R1.hA (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have h0 : (pdats m ρ R1 1 c).owed 0 = 0 := R1.howed (V2 m ρ) c 0
      have hr : (pdats m ρ R1 1 c).recorded 0 = Set.univ := R1.hrec (V2 m ρ) c 0
      unfold Pipeline.Dat.owesAt Pipeline.owesWithin Pipeline.Dat.bound; rw [h0, hr]
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (R1.hin (V2 m ρ) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (R1.hout (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ R1) ((pdats m ρ R1 1 c).share_full fun w => R1.hq (V2 m ρ) c w)
      (V2 m ρ c) (V3 m ρ R1 c) ((pdats m ρ R1 1 c).arrAt · cfg1.N) (hF1 m ρ R1 c) (hrest1 m ρ R1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    have h0 : (pdats m ρ R1 1 c).owed (Fin.last (Pipeline.pin (pcfgs (F := F)) adm 1).N) = 0 := R1.howed (V2 m ρ) c _
    unfold Pipeline.Dat.owesAt Pipeline.owesWithin; rw [h0]
    icases HO with ⟨%W, -, HO⟩; iexists W; iexact HO

/-! ## The program as segments, and the launch -/

abbrev segs : List (Pipeline.Seg (pcfgs (F := F)) adm (pdats m ρ R1) () defs₀ 𝒱₀ L lv) :=
  [ .region (reg0 m ρ R1),
    .host (hseg hostOps1 hostOps1_sub hostOps1_fresh (W1 m ρ)),
    .region (reg1 m ρ R1) ]
theorem main_run (c : Dev nD) : main (F := F) c = Pipeline.Seg.run (segs m ρ R1) := (main_chain c).trans (by chain_rfl)

set_option backward.isDefEq.respectTransparency.types false in
/-- Every weakly fair execution of the program from memory m with zero counters terminates, nothing faulting, and every
    final state holds each unscoped buffer at the last boundary's contents: in particular the result array at W3's value
    and each argument as launched. -/
theorem run_main : θ_run defs (onTc (τ := τ) (main (F := F))) ⟨m, fun _ => 0, ρ⟩ (fun r => ∀ c : Dev nD,
      r.2.mem ((c.tc : Thread nD τ).loc main_v3) = W3 m ρ R1 c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ R1) () cellOf_inj emb₁ defs₀ 𝒱₀ L lv m ρ main (segs m ρ R1)
    (fun c Q => by rw [main_run m ρ R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ R1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ R1 c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ R1 c) s')
      isplitl [Hh] <;> iassumption)
    (hQ := fun s h c =>
      ⟨h c _ (mem_uc main_v3 (by decide)),
       (h c _ (mem_uc main_arg0 (by decide))).trans (W3_main_arg0 m ρ R1 c),
       (h c _ (mem_uc main_arg1 (by decide))).trans (W3_main_arg1 m ρ R1 c),
       (h c _ (mem_uc main_arg2 (by decide))).trans (W3_main_arg2 m ρ R1 c)⟩)

include R1 in
/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ R1)

end Cert.KernelIdeal.Hand

end
-- ==== Proof.KIFfnRuns.lean ====
/- The second pallas_call (the tiled matmul with bias and ReLU), body side, at the buffer contents V
   found when the call is entered: what the three case runs share. -/
import proofs.«152050_j33732673143833_2_alg».proof.Proof.Gen.KernelIdeal.Launch
import proofs.«152050_j33732673143833_2_alg».proof.Proof.Gen.KernelIdeal.Skeleton
import proofs.«152050_j33732673143833_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the normalized rows' block (i,k)) holds its block at every point, for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weights' block (j,k)) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias' block (0,j)), fetched only where j changes: where it is not fetched its block index
    is the one of the point before, so the buffer still holds this point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the grid point -/

/-- k = 0, as the body computes it. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- k = 7, as the body computes it. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k = 0 (and k ≠ 7) nothing is stored into output 3 and its block is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- Where 0 < k < 7 likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 7 output 3 is stored. -/
theorem liveAt1_3_C : ∀ t : Fin cfg1.N, ¬cond1_0 (grid1.coords t) → cond1_1 (grid1.coords t) → cfg1.idle 3 (grid1.coords t) = false := by decide +kernel

/-! ## The staging memrefs and the accumulator -/

/-- One staging buffer of output window 3, through which its contents are stated. -/
abbrev VO1_3 : View sig .tc .vmem S2048x1024 .f32 := (Memref.whole cc1_stg3_0 : Memref sig .tc .vmem S2048x1024 .f32).view
/-- Each window's current staging memref at point `t`, and its wholeness. -/
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S2048x1024 .f32 := Memref.whole cc1_scratch0
abbrev VS1_0 : View sig .tc .vmem S2048x1024 .f32 := scM1_0.view

/-- The invariant the call is entered with: the first call's four staging buffers at some contents, the accumulator
    owned at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KIFfnRunA.lean ====
/- The matmul body where k = 0 (the accumulator is zeroed, then the first product added; nothing stored to the output):
   its run on whole staging memrefs, the pieces the accumulator ends with being the witness. -/
import proofs.«152050_j33732673143833_2_alg».proof.Proof.KIFfnRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case A (k = 0, k ≠ 7). On whole staging memrefs — the three inputs' at contents `x0 x1 x2`, the output's at contents
    `xi3` handed back untouched, the accumulator at anything — the body runs to the continuation holding the inputs and the
    output as they were and the accumulator with its pieces `LS0` written. -/
noncomputable def kernelRun1_A (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_kernel i arg3 harg3 arg4 harg4 arg5 harg5 arg6 harg6 arg7 harg7) K } := by
  refine ⟨[], ?_, fun xi3 E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KIFfnRunB.lean ====
/- The matmul body where 0 < k < 7 (one more product added to the accumulator; nothing stored to the output). -/
import proofs.«152050_j33732673143833_2_alg».proof.Proof.KIFfnRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case B (k ≠ 0, k ≠ 7). As case A, the accumulator entered at the contents `xs0` the point before left. -/
noncomputable def kernelRun1_B (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_kernel i arg3 harg3 arg4 harg4 arg5 harg5 arg6 harg6 arg7 harg7) K } := by
  refine ⟨[], ?_, fun xi3 E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KIFfnRunC.lean ====
/- The matmul body where k = 7 (the last product added; bias added, negatives clamped to zero, stored to the output). -/
import proofs.«152050_j33732673143833_2_alg».proof.Proof.KIFfnRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case C (k ≠ 0, k = 7). The output's staging memref is entered at anything and left with its pieces `L3` written. -/
noncomputable def kernelRun1_C (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_kernel i arg3 harg3 arg4 harg4 arg5 harg5 arg6 harg6 arg7 harg7) K } := by
  refine ⟨?_, ?_, fun E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KIFfn.lean ====
/- The second pallas_call (the tiled matmul with bias and ReLU), body side: what the output's staging buffer and the
   accumulator hold point by point, the proof data at the entry contents V, and the body obligation. -/
import proofs.«152050_j33732673143833_2_alg».proof.Proof.KIFfnRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 3 (idle there and not written back): a placeholder nothing consults. -/
def out1_A_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) : Vec F S2048x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's pieces for the accumulator tile it, so they cover it. -/
theorem scover1_A_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y

/-- What case A leaves in the accumulator: its pieces read back. -/
def sout1_A_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) : Vec F S2048x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Case B stores nothing into output 3 (idle there and not written back): a placeholder nothing consults. -/
def out1_B_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) : Vec F S2048x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's pieces for the accumulator tile it, so they cover it. -/
theorem scover1_B_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y

/-- What case B leaves in the accumulator: its pieces read back. -/
def sout1_B_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) : Vec F S2048x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's pieces for output 3 tile its block, so they cover it. -/
theorem cover1_C_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y

/-- What case C leaves in output 3's staging buffer: its pieces read back. -/
def out1_C_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's pieces for the accumulator tile it, so they cover it. -/
theorem scover1_C_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y

/-- What case C leaves in the accumulator: its pieces read back. -/
def sout1_C_0 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) : Vec F S2048x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output's buffer and the accumulator hold after each point -/

/-- THE ACCUMULATION: (output 3's staging buffer, the accumulator) after the body at position `n`: the case the closed
    forms select there, run at the point's memrefs and input blocks, the accumulator entered at what position `n - 1` left. -/
def outsAt1 (c : Dev nD) : (n : ℕ) → n < cfg1.N → Vec F S2048x1024 .f32 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point with k = 0. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point with 0 < k < 7, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 7, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point what the call is entered with; afterwards the first call's staging buffers
    at some contents, the accumulator at what the point before left in it, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second call on core `c`: the arrays as the call finds them (`V`); after the body at point `t`
    each input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; k decides the case; the invariant hands the body the
    accumulator at what the point before left (at anything at the very first point) and takes it back at this point's
    contents; where k ≠ 7 the output's buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Hr0, Hr1, Hr2, Hr3, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr0 Hr1 Hr2 Hr3 HS0 Hg]
        · isplitl [Hr0 Hr1 Hr2 Hr3 HS0]
          · isplitl [Hr0]; · iexact Hr0
            isplitl [Hr1]; · iexact Hr1
            isplitl [Hr2]; · iexact Hr2
            isplitl [Hr3]; · iexact Hr3
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hr0, Hr1, Hr2, Hr3, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hr0 Hr1 Hr2 Hr3 HS0 Hg]
        · isplitl [Hr0 Hr1 Hr2 Hr3 HS0]
          · isplitl [Hr0]; · iexact Hr0
            isplitl [Hr1]; · iexact Hr1
            isplitl [Hr2]; · iexact Hr2
            isplitl [Hr3]; · iexact Hr3
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨Hr0, Hr1, Hr2, Hr3, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Hr0 Hr1 Hr2 Hr3 HS0 Hg]
        · isplitl [Hr0 Hr1 Hr2 Hr3 HS0]
          · isplitl [Hr0]; · iexact Hr0
            isplitl [Hr1]; · iexact Hr1
            isplitl [Hr2]; · iexact Hr2
            isplitl [Hr3]; · iexact Hr3
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Hr0, Hr1, Hr2, Hr3, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr0 Hr1 Hr2 Hr3 HS0 Hg]
        · isplitl [Hr0 Hr1 Hr2 Hr3 HS0]
          · isplitl [Hr0]; · iexact Hr0
            isplitl [Hr1]; · iexact Hr1
            isplitl [Hr2]; · iexact Hr2
            isplitl [Hr3]; · iexact Hr3
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry invariant back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, HS0⟩, Hg⟩
  isplitl [Hr0 Hr1 Hr2 Hr3 HS0]
  · isplitl [Hr0]; · iexact Hr0
    isplitl [Hr1]; · iexact Hr1
    isplitl [Hr2]; · iexact Hr2
    isplitl [Hr3]; · iexact Hr3
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KIInst.lean ====
/-
  The matrix-product region's proof data meet what the launch needs of them; so the whole program runs, the result array
  ends at the fold's value, and the arguments end as launched.
-/
import proofs.«152050_j33732673143833_2_alg».proof.Proof.KIRun
import proofs.«152050_j33732673143833_2_alg».proof.Proof.KIFfn

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The matrix-product region's proof data, at any entry contents. -/
def region1 : Region1 F where
  dat := fun V c => dat1 V c
  hA := fun V c w => A_eq1 V c w
  hq := fun _ _ _ => rfl
  howed := fun _ _ _ => rfl
  hrec := fun _ _ _ => rfl
  hbody := fun V c => body_obligation1 V c
  hin := fun V c => hin1 V c
  hout := fun V c => hout1 V c

variable (m : (ℓ : Loc nD τ sig) → Buf (Elt F) ℓ) (ρ : Dev nD → PrngReg)

/-- Every weakly fair execution terminates; the result array ends at what the matrix-product region's write-backs fold to,
    from the entry contents the normalisation region and the host operations left; the arguments end as launched. -/
theorem run_all : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (W3_arr m ρ region1 c 3), (h c).2⟩) (run_main m ρ region1)

/-- The frame: the three argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame m ρ region1

end Cert.KernelIdeal.Hand

end
-- ==== Proof.KIHost.lean ====
/-
  What the matrix-product region finds in its three input arrays: the normalised rows the first region left, the weight
  rounded to bf16 by the host, and the bias reshaped to one row.
-/
import proofs.«152050_j33732673143833_2_alg».proof.Proof.KIRun
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first window's array is what the normalisation region's write-backs left. -/
theorem V2_main_v0 (c : Dev nD) : V2 m ρ c main_v0 = (dat0 (V0 m ρ) c).arrAt 1 cfg0.N :=
  (W2_of_not_written m ρ c main_v0 (by decide) (by decide)).trans (W1_arr m ρ c 1)

/-- The weight as the region finds it: the argument rounded to bf16. -/
theorem V2_main_v1 (c : Dev nD) :
    (V2 m ρ c main_v1 : S4096x4096.Idx → Elt F .bf16)
      = truncf .bf16 (W1 m ρ c (Proc.devRef .tc main_arg1) : S4096x4096.Idx → Elt F .f32) bitsLt_bf16_f32 := by
  show StableHlo.after hostOps1 (W1 m ρ c) (Proc.devRef .tc main_v1) = _
  after_results

/-- The bias as the region finds it: the argument reshaped to one row. -/
theorem V2_main_v2 (c : Dev nD) :
    (V2 m ρ c main_v2 : S1x4096.Idx → Elt F .f32)
      = shapeCast S1x4096 (W1 m ρ c (Proc.devRef .tc main_arg2) : S4096.Idx → Elt F .f32) shapeCasts_S4096_S1x4096 := by
  show StableHlo.after hostOps1 (W1 m ρ c) (Proc.devRef .tc main_v2) = _
  after_results
  rfl

theorem W1_main_arg1 (c : Dev nD) : W1 m ρ c (Proc.devRef .tc main_arg1) = m ((c : Thread nD τ).loc main_arg1) :=
  W1_of_ne m ρ c main_arg1 (by decide)
theorem W1_main_arg2 (c : Dev nD) : W1 m ρ c (Proc.devRef .tc main_arg2) = m ((c : Thread nD τ).loc main_arg2) :=
  W1_of_ne m ρ c main_arg2 (by decide)

end Cert.KernelIdeal.Hand

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.Spec.lean ====
/-
  The specification: what both programs compute, as ONE function of the three argument arrays, index by index, on the
  extended reals.

  For a row `p` of `x` the denominator is `den x p = √(∑ₖ x(p,k)²) + ε`, and the result at `(p, q)` is
  `max ((∑ₖ x(p,k) / den x p · W(q,k)) + b(q)) 0`: each row of `x` divided by its Euclidean norm plus `ε`, multiplied by
  the transpose of `W`, the bias added, negative entries replaced by zero.

  Three laws relate the two arrangements of this function:
  * the denominator is never zero (`den_ne_zero`): a square is nonnegative on the extended reals, so is a sum of squares
    and its square root, and `ε` is a positive real — nothing is assumed of `x`;
  * for a nonzero `d`, multiplying by the reciprocal `1 / d` is dividing by `d` (`mul_recip`);
  * a sum over 4096 positions is the sum over 8 consecutive blocks of 512 (`sum_blocks`).
  Together (`blocked_eq_G`): the blocked sum of products with the reciprocal is the specification.
-/
import Idealize.ShloMosaic.PureOps.Ideal
import Idealize.ShloMosaic.Lib.ValueIdx
import proofs.«152050_j33732673143833_2_alg».proof.Proof.LibUnitAxisSums

noncomputable section

open scoped BigOperators

namespace Cert.KernelIdeal.Val

open Idealize.ShloMosaic Idealize.ShloMosaic.ValueIdx

/-! ## The function -/

/-- The constant added to a row's norm, as the extended real its f32 word denotes (about `1e-8`). -/
def eps : EReal := Ideal.ofBits .f32 0x322BCC77#32

/-- The denominator of row `p` of an array with 4096 columns: the square root of the row's sum of squares, plus `eps`. -/
def den {n : ℕ} (x : (⟨2, ![n, 4096]⟩ : Shape).Idx → EReal) (p : Fin n) : EReal :=
  Ideal.sqrt (∑ k : Fin 4096, x (ix2 p k) * x (ix2 p k)) + eps

/-- The result at row `p`, column `q`. -/
def Gat (x : (⟨2, ![8192, 4096]⟩ : Shape).Idx → EReal) (W : (⟨2, ![4096, 4096]⟩ : Shape).Idx → EReal)
    (b : (⟨1, ![4096]⟩ : Shape).Idx → EReal) (p : Fin 8192) (q : Fin 4096) : EReal :=
  max ((∑ k : Fin 4096, Ideal.div (x (ix2 p k)) (den x p) * W (ix2 q k)) + b (ix1 q)) 0

/-- The result array: `relu ((x / (‖x‖ + ε)) · Wᵀ + b)`, row norms taken along the columns of `x`. -/
def G (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => Gat x W b (i 0) (i 1)

/-- The result array read at `(p, q)`. -/
theorem G_apply (x : (⟨2, ![8192, 4096]⟩ : Shape).Idx → EReal) (W : (⟨2, ![4096, 4096]⟩ : Shape).Idx → EReal)
    (b : (⟨1, ![4096]⟩ : Shape).Idx → EReal) (p : Fin 8192) (q : Fin 4096) :
    G x W b (ix2 p q)
      = max ((∑ k : Fin 4096, Ideal.div (x (ix2 p k)) (den x p) * W (ix2 q k)) + b (ix1 q)) 0 := rfl

/-! ## The denominator is not zero -/

/-- A square is nonnegative on the extended reals: the infinities' squares are `⊤`. -/
theorem mul_self_nonneg_ereal (y : EReal) : 0 ≤ y * y := by
  induction y using EReal.rec with
  | bot => rw [EReal.bot_mul_bot]; exact le_top
  | top => rw [EReal.top_mul_top]; exact le_top
  | coe r => rw [← EReal.coe_mul]; exact EReal.coe_nonneg.mpr (mul_self_nonneg r)

/-- The square root of a nonnegative extended real is nonnegative. -/
theorem sqrt_nonneg {s : EReal} (h : 0 ≤ s) : 0 ≤ Ideal.sqrt s := by
  induction s using EReal.rec with
  | bot => exact absurd h (by simp)
  | top => exact le_top
  | coe r =>
    have hr : 0 ≤ r := EReal.coe_nonneg.mp h
    rw [Ideal.sqrt_coe, if_neg (not_lt.mpr hr)]
    exact EReal.coe_nonneg.mpr (Real.sqrt_nonneg r)

/-- The word of `eps` denotes the dyadic rational `11258999 · 2⁻⁵⁰`. -/
theorem eps_eq : eps = ((11258999 * (2 : ℝ) ^ (-50 : ℤ) : ℝ) : EReal) := by
  simp [eps, Ideal.ofBits, Ideal.ieee, -EReal.coe_mul]

/-- `eps` is positive. -/
theorem eps_pos : 0 < eps := by
  rw [eps_eq]
  exact EReal.coe_pos.mpr (by positivity)

/-- The denominator of a row is never zero, whatever the row holds: a nonnegative extended real plus a positive real. -/
theorem den_ne_zero {n : ℕ} (x : (⟨2, ![n, 4096]⟩ : Shape).Idx → EReal) (p : Fin n) : den x p ≠ 0 :=
  (eps_pos.trans_le (le_add_of_nonneg_left
    (sqrt_nonneg (Finset.sum_nonneg fun k _ => mul_self_nonneg_ereal _)))).ne'

/-! ## The reciprocal -/

/-- The f32 word `0x3F800000` denotes `1`. -/
theorem ofBits_one : Ideal.ofBits .f32 0x3F800000#32 = 1 := by
  simp [Ideal.ofBits, Ideal.ieee, -EReal.coe_mul]; norm_num

/-- The scalar constant `1.0` of a kernel is the extended real `1`. -/
theorem scalar_one : Scalar.ofBits (F := Ideal) .f32 0x3F800000#32 = (1 : EReal) := ofBits_one

/-- For a nonzero denominator, the product with the reciprocal is the quotient. -/
theorem mul_recip {d : EReal} (hd : d ≠ 0) (y : EReal) : y * Ideal.div 1 d = Ideal.div y d := by
  rw [Ideal.div, if_neg hd, Ideal.div, if_neg hd, one_mul]

/-! ## Sums by blocks -/

/-- Position `kk` of block `kb`, of 8 consecutive blocks of 512. -/
def kidx (kb : Fin 8) (kk : Fin 512) : Fin 4096 := ⟨kb.val * 512 + kk.val, by omega⟩

/-- A sum over 4096 positions is the sum over 8 consecutive blocks of 512. -/
theorem sum_blocks {M : Type*} [AddCommMonoid M] (f : Fin 4096 → M) :
    ∑ k : Fin 4096, f k = ∑ kb : Fin 8, ∑ kk : Fin 512, f (kidx kb kk) := by
  rw [sum_fin_blocks 8 512 f]
  refine Finset.sum_congr rfl fun kb _ => Finset.sum_congr rfl fun kk _ => congrArg f (Fin.ext ?_)
  show 512 * kb.val + kk.val = kb.val * 512 + kk.val
  omega

/-! ## The blocked arrangement is the specification -/

/-- The sum over 8 blocks of 512 of the products `(x(p,k) · (1 / den x p)) · W(q,k)`, plus the bias, clamped below at
    zero, is the specification at `(p, q)`. -/
theorem blocked_eq_G (x : (⟨2, ![8192, 4096]⟩ : Shape).Idx → EReal) (W : (⟨2, ![4096, 4096]⟩ : Shape).Idx → EReal)
    (b : (⟨1, ![4096]⟩ : Shape).Idx → EReal) (p : Fin 8192) (q : Fin 4096) :
    max ((∑ kb : Fin 8, ∑ kk : Fin 512,
        (x (ix2 p (kidx kb kk)) * Ideal.div 1 (den x p)) * W (ix2 q (kidx kb kk))) + b (ix1 q)) 0
      = G x W b (ix2 p q) := by
  rw [G_apply, sum_blocks fun k => Ideal.div (x (ix2 p k)) (den x p) * W (ix2 q k)]
  simp only [mul_recip (den_ne_zero x p)]

end Cert.KernelIdeal.Val

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.PayNorm.lean ====
/-
  The first kernel's stored block, read at an index: row `p`, column `j` of the block is the block's entry there times
  the reciprocal of the row's denominator, `x(p,j) · (1 / (√(∑ₖ x(p,k)²) + ε))`. The row's sum of squares is a sum over
  the 4096 columns; kept as a column `[256, 1]` and broadcast back along the row, the reciprocal is the same at every
  column; the final change of format is the identity on extended reals.
-/
import proofs.«152050_j33732673143833_2_alg».proof.Proof.Gen.KernelIdeal.Skeleton
import proofs.«152050_j33732673143833_2_alg».proof.Proof.Spec
import proofs.«152050_j33732673143833_2_alg».proof.Proof.LibKeepdims
import proofs.«152050_j33732673143833_2_alg».proof.Proof.LibColumnBroadcast
import Idealize.ShloMosaic.Lib.Pipeline.Value
import Idealize.ShloMosaic.PureOps.Ideal.Laws

noncomputable section

open scoped BigOperators

namespace Cert.KernelIdeal.Val

open Idealize.ShloMosaic Idealize.ShloMosaic.ValueIdx Cert.KernelIdeal Cert.KernelIdeal.Gen

/-- A square root of a vector at an index is the square root of the element. -/
theorem sqrt_apply {s : Shape} {φ : FTy} (a : FVec Ideal s φ) (i : s.Idx) : sqrt a i = Ideal.sqrt (a i) := rfl

/-- A sum over the columns of a `[256, 4096]` block from the zero accumulator, read at row `p`: the sum of the row's 4096
    entries. -/
theorem row_sum (src : FVec Ideal S256x4096 .f32) (hφ : FKind.Formats .f32)
    (hacc : (0x00000000#32 : BitVec 32) = 0x00000000#32) (p : Fin 256) :
    multiReduction .add [1] S256 src 0x00000000#32 reduces_S256x4096_S256 hφ hacc (ix1 p)
      = ∑ k : Fin 4096, src (ix2 p k) :=
  Cert.MemAttn.Layout.multiReduction_add_row src 0x00000000#32 reduces_S256x4096_S256 hφ hacc p

/-- The stored block of the normalizing kernel at `(p, j)`: the entry times the reciprocal of the row's denominator. -/
theorem pay_norm (x0 : FVec Ideal S256x4096 .f32) (p : Fin 256) (j : Fin 4096) :
    k0_pay1 (F := Ideal) x0 (ix2 p j) = x0 (ix2 p j) * Ideal.div 1 (den x0 p) := by
  unfold k0_pay1
  dsimp only
  rw [truncf_apply, mulf_apply, Cert.WeightUpdate.Layout.broadcastTo_a1_ab_apply, divf_apply, addf_apply,
    broadcast_apply, broadcast_apply, sqrt_apply, Cert.MemAttn.Layout.shapeCast_a_a1_apply,
    row_sum]
  simp only [mulf_apply, scalar_one]
  rfl

/-- The same with the denominator written out. -/
theorem pay_norm_spelt (x0 : FVec Ideal S256x4096 .f32) (p : Fin 256) (j : Fin 4096) :
    k0_pay1 (F := Ideal) x0 (ix2 p j)
      = x0 (ix2 p j) * Ideal.div (Scalar.ofBits (F := Ideal) .f32 0x3F800000#32)
          (Ideal.sqrt (∑ k : Fin 4096, x0 (ix2 p k) * x0 (ix2 p k)) + eps) := by
  rw [pay_norm, scalar_one]
  rfl

end Cert.KernelIdeal.Val

end
-- ==== Proof.KIValNorm.lean ====
/-
  What the normalisation region leaves in its output array, at the exact instance: every row of the argument scaled by the
  reciprocal of its denominator (the row's Euclidean norm plus epsilon). Point t covers rows 256 t … 256 t + 255; its block
  depends only on those rows; the 32 blocks tile the array.
-/
import proofs.«152050_j33732673143833_2_alg».proof.Proof.KINorm
import proofs.«152050_j33732673143833_2_alg».proof.Proof.Spec
import proofs.«152050_j33732673143833_2_alg».proof.Proof.PayNorm
import Idealize.ShloMosaic.Lib.Pipeline.Value

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Val

variable (V : (c : Dev nD) → (b : Ref sig .tc) → Buf (Elt Ideal) ((c : Thread nD τ).loc b))

theorem hz2 : (![0, 0] : Fin 2 → Nat) = fun _ => 0 := funext fun a => by fin_cases a <;> rfl

/-- The rows of an array with 4096 columns, each scaled by the reciprocal of its denominator. -/
def Xn (a : S8192x4096.Idx → EReal) : S8192x4096.Idx → EReal := fun i => a i * Ideal.div 1 (den a (i 0))

theorem Xn_apply (a : S8192x4096.Idx → EReal) (p : Fin 8192) (k : Fin 4096) :
    Xn a (ix2 p k) = a (ix2 p k) * Ideal.div 1 (den a p) := rfl

/-- Both windows' block at point t is block row t, column block 0 (decided over the 32 points). -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A block whose rows are rows 256 r … of an array scales to the same rows of the scaled array: a row's denominator
    reads that row only. -/
theorem norm_block (a : S8192x4096.Idx → EReal) (x0 : FVec Ideal S256x4096 .f32) (r : Fin 32)
    (hx : ∀ (p : Fin 256) (k : Fin 4096), x0 (ix2 p k) = a (ix2 ⟨r.val * 256 + p.val, by omega⟩ k))
    (p : Fin 256) (q : Fin 4096) :
    k0_pay1 (F := Ideal) x0 (ix2 p q) = Xn a (ix2 ⟨r.val * 256 + p.val, by omega⟩ q) := by
  rw [pay_norm, Xn_apply, hx p q]
  refine congrArg (fun d => _ * Ideal.div 1 d) ?_
  unfold den
  refine congrArg (fun s => Ideal.sqrt s + eps) ?_
  exact Finset.sum_congr rfl fun k _ => by rw [hx p k]

/-- The input block at point t, read at (p, k), is the argument's entry (256 t + p, k). -/
theorem blk0_read (c : Dev nD) (t : Fin cfg0.N) (p : Fin 256) (k : Fin 4096) (h : t.val * 256 + p.val < 8192) :
    (iblk0 V c 0 t : S256x4096.Idx → EReal) (ix2 p k)
      = (V c main_arg0 : S8192x4096.Idx → EReal) (ix2 ⟨t.val * 256 + p.val, h⟩ k) := by
  obtain ⟨e0, e1, -, -⟩ := idx0 t
  show V c main_arg0 (((cfg0.win 0).blk t).view.emb (ix2 p k)) = V c main_arg0 _
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 4096 + 1 * k.val = k.val; omega

/-- What point t writes back is block t of the scaled array. -/
theorem flushed0_eq (c : Dev nD) (t : Fin cfg0.N) :
    (dat0 V c).flushed 1 t = ((cfg0.win 1).blk t).view.read (Elt Ideal) (Xn (V c main_arg0)) := by
  show (cfg0.win 1).cut (grid0.coords t) ((dat0 V c).after 1 t) = _
  rw [after0_1]
  unfold out0_1
  rw [View.canon_unit_zero hz2]
  simp only [View.ld_unit_zero (S := S256x4096) hz2]
  have hN : t.val < 32 := lt_of_lt_of_eq t.isLt N_0
  obtain ⟨-, -, e2, e3⟩ := idx0 t
  funext j
  obtain ⟨p, q, rfl⟩ : ∃ (p : Fin 256) (q : Fin 4096), j = ix2 p q := ⟨j 0, j 1, eq_ix2 j⟩
  show k0_pay1 (F := Ideal) (iblk0 V c 0 t) (ix2 p q) = Xn (V c main_arg0) (((cfg0.win 1).blk t).view.emb (ix2 p q))
  refine (norm_block (V c main_arg0) (iblk0 V c 0 t) ⟨t.val, hN⟩ (fun p k => blk0_read V c t p k (by omega)) p q).trans ?_
  refine congrArg _ (funext fun a => Fin.ext ?_)
  match a with
  | ⟨0, _⟩ => show t.val * 256 + p.val = win0_1.index t (0 : Fin 2) * 256 + 1 * p.val; omega
  | ⟨1, _⟩ => show q.val = win0_1.index t (1 : Fin 2) * 4096 + 1 * q.val; omega

/-- An index of the array is in point t's block iff each coordinate is in the block's range on its axis. -/
theorem mem_blk0 (t : Fin cfg0.N) (i : S8192x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Every block row is some point's. -/
theorem idx_onto0 : ∀ q0 : Fin 32, ∃ t : Fin cfg0.N, win0_1.index t = ![q0.val, 0] :=
  (by decide +kernel : ∀ q0 : Fin 32, ∃ t : Fin grid0.N, win0_1.index t = ![q0.val, 0])

/-- Every index of the array is in the block of the point that covers its row: row r is in block r / 256. -/
theorem cover0 (i : S8192x4096.Idx) : ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ := idx_onto0 ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- The output array after the region: the scaled rows of the argument as the region found it. -/
theorem final0 (c : Dev nD) : (dat0 V c).arrAt 1 cfg0.N = Xn (V c main_arg0) :=
  (dat0 V c).arrAt_eq_of_cover 1 (Xn (V c main_arg0)) (fun t _ => flushed0_eq V c t) cover0

end Cert.KernelIdeal.Hand

end
-- ==== Proof.KIFfnPieces.lean ====
/- The second pallas_call, body side: the values the run's pieces are. After the body at a point the accumulator is
   the point's product added to what it held (zeros where k = 0), and where k = 7 the output's buffer is
   max(accumulator + bias, 0). -/
import proofs.«152050_j33732673143833_2_alg».proof.Proof.KIFfn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole-buffer rectangles start at offset zero on both axes. -/
theorem off2_zero : (![0, 0] : Fin 2 → ℕ) = fun _ => 0 := by funext a; fin_cases a <;> rfl

/-- Where k = 0 the accumulator ends at the first product added to the zero block: the body stores zeros over
    whatever the accumulator held, reads them back, and stores the sum. -/
theorem acc_first (c : Dev nD) (t : Fin cfg1.N) (h : t.val % 8 = 0) :
    (outsAt1 V c t.val t.isLt).2 = k1_pay2 (iblk1 V c 0 t) (iblk1 V c 1 t) (k1_pay1 (F := F)) := by
  rw [outsAt1_A V c t h (by omega)]
  dsimp only
  unfold sout1_A_0
  rw [View.read_writes_eq_canon _ _ _ (scover1_A_0 _ _ _ _ _ _ _ _ _ _ _ _ _ _ _ _ _)]
  unfold kernelRun1_A
  dsimp only
  sl_unfold_words
  rw [View.canon_cons_unit_zero (S := S2048x1024) off2_zero, View.readCov_unit_zero (S := S2048x1024) _ off2_zero]
  simp only [View.readAt_eq_ld, (hs1_0 t).read_unread, (hs1_1 t).read_unread, View.ld_unit_zero (S := S2048x512) off2_zero, View.ld_unit_zero (S := S1024x512) off2_zero]

/-- Where k ≠ 0 the accumulator ends at this point's product added to what the point before left in it
    (whether or not k = 7: the store to the output comes after and does not touch the accumulator). -/
theorem acc_next (c : Dev nD) (t : Fin cfg1.N) (h : ¬ t.val % 8 = 0) :
    (outsAt1 V c t.val t.isLt).2 = k1_pay2 (iblk1 V c 0 t) (iblk1 V c 1 t) (outsAt1 V c (t.val - 1) (Nat.lt_of_le_of_lt (Nat.sub_le _ _) t.isLt)).2 := by
  by_cases h7 : t.val % 8 = 7
  · rw [outsAt1_C V c t h h7]
    dsimp only
    unfold sout1_C_0
    rw [View.read_writes_eq_canon _ _ _ (scover1_C_0 _ _ _ _ _ _ _ _ _ _ _ _ _ _ _ _ _ _)]
    unfold kernelRun1_C
    dsimp only
    sl_unfold_words
    rw [View.canon_unit_zero (S := S2048x1024) off2_zero]
    simp only [View.readAt_eq_ld, (hs1_0 t).read_unread, (hs1_1 t).read_unread, (Memref.isWhole_whole cc1_scratch0).read_unread, View.ld_unit_zero (S := S2048x512) off2_zero, View.ld_unit_zero (S := S1024x512) off2_zero, View.ld_unit_zero (S := S2048x1024) off2_zero]
  · rw [outsAt1_B V c t h h7]
    dsimp only
    unfold sout1_B_0
    rw [View.read_writes_eq_canon _ _ _ (scover1_B_0 _ _ _ _ _ _ _ _ _ _ _ _ _ _ _ _ _ _)]
    unfold kernelRun1_B
    dsimp only
    sl_unfold_words
    rw [View.canon_unit_zero (S := S2048x1024) off2_zero]
    simp only [View.readAt_eq_ld, (hs1_0 t).read_unread, (hs1_1 t).read_unread, (Memref.isWhole_whole cc1_scratch0).read_unread, View.ld_unit_zero (S := S2048x512) off2_zero, View.ld_unit_zero (S := S1024x512) off2_zero, View.ld_unit_zero (S := S2048x1024) off2_zero]

/-- Where k = 7 the output's buffer ends at max(accumulator + bias, 0), the accumulator being the one this same point
    leaves (the body reads it back after its last accumulation) and the bias the point's block of it. -/
theorem out_last (c : Dev nD) (t : Fin cfg1.N) (h : t.val % 8 = 7) :
    (outsAt1 V c t.val t.isLt).1 = k1_pay3 (outsAt1 V c t.val t.isLt).2 (iblk1 V c 2 t) := by
  rw [outsAt1_C V c t (by omega) h]
  dsimp only
  unfold out1_C_3 sout1_C_0
  rw [View.read_writes_eq_canon _ _ _ (scover1_C_0 _ _ _ _ _ _ _ _ _ _ _ _ _ _ _ _ _ _), View.read_writes_eq_canon _ _ _ (cover1_C_3 _ _ _ _ _ _ _ _ _ _ _ _ _ _ _ _ _ _)]
  unfold kernelRun1_C
  dsimp only
  sl_unfold_words
  simp only [View.canon_unit_zero (S := S2048x1024) off2_zero, View.readCov_unit_zero (S := S2048x1024) _ off2_zero]
  simp only [View.readAt_eq_ld, (hs1_2 t).read_unread, View.ld_unit_zero (S := S1x1024) off2_zero]

end Cert.KernelIdeal.Hand

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.LibRowBroadcast.lean ====
/-
  A general reading at an index: a one-row array `[1, n]` repeated along the rows to `[a, n]` holds, at `(p, c)`, the
  row's entry `c` — a bias row added to every row of a matrix. Independent of any program.
-/
import Idealize.ShloMosaic.Lib.ValueIdx
import Idealize.ShloMosaic.Lib.Pipeline.Value

noncomputable section

namespace Cert.RowBroadcast

open Idealize.ShloMosaic Idealize.ShloMosaic.ValueIdx

variable {α : Type} {a n : ℕ}

/-- A row `[1, n]` broadcast to `[a, n]` holds, at `(p, c)`, the row's entry `(0, c)`. -/
theorem row_broadcast_apply (v : (⟨2, ![1, n]⟩ : Shape).Idx → α)
    (h : (⟨2, ![1, n]⟩ : Shape).Broadcasts ⟨2, ![a, n]⟩) (p : Fin a) (c : Fin n) :
    broadcastTo ⟨2, ![a, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

end Cert.RowBroadcast

end
-- ==== Proof.PayFfn.lean ====
/-
  The second kernel's three stored blocks, read at an index `(p, q)` of the `[2048, 1024]` accumulator or output block:
  * the block stored at the first step along the contraction axis is zero everywhere;
  * the block stored at every step is the accumulator plus the product of the `[2048, 512]` block `a` with the transpose
    of the `[1024, 512]` block `w`: `acc(p,q) + ∑ₖ a(p,k) · w(q,k)`, a sum over the 512 contracted positions;
  * the block stored at the last step is `max (acc(p,q) + bias(0,q)) 0`: the one-row bias is repeated along the rows.
-/
import proofs.«152050_j33732673143833_2_alg».proof.Proof.Gen.KernelIdeal.Skeleton
import proofs.«152050_j33732673143833_2_alg».proof.Proof.LibIndexReads
import proofs.«152050_j33732673143833_2_alg».proof.Proof.LibRowBroadcast
import Idealize.ShloMosaic.Lib.Pipeline.Value
import Idealize.ShloMosaic.PureOps.Ideal.Laws

noncomputable section

open scoped BigOperators

namespace Cert.KernelIdeal.Val

open Idealize.ShloMosaic Idealize.ShloMosaic.ValueIdx Cert.KernelIdeal Cert.KernelIdeal.Gen

/-- The block stored at the first contraction step is zero at every index. -/
theorem pay_zero (p : Fin 2048) (q : Fin 1024) : k1_pay1 (F := Ideal) (ix2 p q) = 0 := by
  unfold k1_pay1
  rw [shapeCast_self, broadcast_apply]
  exact Ideal.ofBits_zero_f32

/-! ## The product's operand indices

The dimension numbers contract axis 1 of both operands and keep axis 0 of each: at output index `(p, q)` and contracted
position `k` the left operand is read at `(p, k)` and the right at `(q, k)`. -/

theorem lhs_ffn_0 (i : S2048x1024.Idx) (c : dot_S2048x512_S1024x512_S2048x1024_1_1_0_0_n_n.contr.Idx) :
    (dot_S2048x512_S1024x512_S2048x1024_1_1_0_0_n_n.lhsIdx i c 0).val = (i 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl

theorem lhs_ffn_1 (i : S2048x1024.Idx) (c : dot_S2048x512_S1024x512_S2048x1024_1_1_0_0_n_n.contr.Idx) :
    (dot_S2048x512_S1024x512_S2048x1024_1_1_0_0_n_n.lhsIdx i c 1).val = (c ⟨0, by decide⟩).val :=
  dot_S2048x512_S1024x512_S2048x1024_1_1_0_0_n_n.lhsIdx_val_of_single rfl i c

theorem rhs_ffn_0 (i : S2048x1024.Idx) (c : dot_S2048x512_S1024x512_S2048x1024_1_1_0_0_n_n.contr.Idx) :
    (dot_S2048x512_S1024x512_S2048x1024_1_1_0_0_n_n.rhsIdx i c 0).val = (i 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl

theorem rhs_ffn_1 (i : S2048x1024.Idx) (c : dot_S2048x512_S1024x512_S2048x1024_1_1_0_0_n_n.contr.Idx) :
    (dot_S2048x512_S1024x512_S2048x1024_1_1_0_0_n_n.rhsIdx i c 1).val = (c ⟨0, by decide⟩).val :=
  dot_S2048x512_S1024x512_S2048x1024_1_1_0_0_n_n.rhsIdx_val_of_single rfl i c

/-- The product of a `[2048, 512]` block with the transpose of a `[1024, 512]` block into the zero accumulator, at
    `(p, q)`: the sum over the 512 contracted positions. -/
theorem matmul_ffn_apply (a : FVec Ideal S2048x512 .bf16) (w : FVec Ideal S1024x512 .bf16) (p : Fin 2048) (q : Fin 1024) :
    matmul dot_S2048x512_S1024x512_S2048x1024_1_1_0_0_n_n none a w (constant (F := Ideal) S2048x1024 .f32 0x00000000#32)
        (ix2 p q)
      = ∑ k : Fin 512, a (ix2 p k) * w (ix2 q k) := by
  refine Cert.IndexReads.matmul_zero_single dot_S2048x512_S1024x512_S2048x1024_1_1_0_0_n_n 512 rfl rfl none a w (ix2 p q)
    (fun k => ix2 p k) (fun k => ix2 q k) (fun k => ?_) (fun k => ?_)
  · have hk := contrEquiv1_symm_val dot_S2048x512_S1024x512_S2048x1024_1_1_0_0_n_n 512 rfl rfl k
    exact funext fun ax => Fin.ext (by
      match ax with
      | ⟨0, _⟩ => exact lhs_ffn_0 _ _
      | ⟨1, _⟩ => exact (lhs_ffn_1 _ _).trans hk)
  · have hk := contrEquiv1_symm_val dot_S2048x512_S1024x512_S2048x1024_1_1_0_0_n_n 512 rfl rfl k
    exact funext fun ax => Fin.ext (by
      match ax with
      | ⟨0, _⟩ => exact rhs_ffn_0 _ _
      | ⟨1, _⟩ => exact (rhs_ffn_1 _ _).trans hk)

/-- The block stored at every contraction step, at `(p, q)`: the accumulator plus the 512-term product sum. -/
theorem pay_acc (a : FVec Ideal S2048x512 .bf16) (w : FVec Ideal S1024x512 .bf16) (acc : FVec Ideal S2048x1024 .f32)
    (p : Fin 2048) (q : Fin 1024) :
    k1_pay2 (F := Ideal) a w acc (ix2 p q) = acc (ix2 p q) + ∑ k : Fin 512, a (ix2 p k) * w (ix2 q k) := by
  unfold k1_pay2
  rw [shapeCast_self, shapeCast_self, shapeCast_self, addf_apply, matmul_ffn_apply]

/-- The block stored at the last contraction step, at `(p, q)`: the accumulator plus the bias of column `q`, clamped
    below at zero. -/
theorem pay_out (acc : FVec Ideal S2048x1024 .f32) (bias : FVec Ideal S1x1024 .f32) (p : Fin 2048) (q : Fin 1024) :
    k1_pay3 (F := Ideal) acc bias (ix2 p q) = max (acc (ix2 p q) + bias (ix2 0 q)) 0 := by
  unfold k1_pay3
  rw [maximumf_apply, addf_apply, Cert.RowBroadcast.row_broadcast_apply, shapeCast_self, broadcast_apply]
  exact congrArg (max _) Ideal.ofBits_zero_f32

end Cert.KernelIdeal.Val

end
-- ==== Proof.KIValFfnFold.lean ====
/-
  The accumulator of the second kernel over one run of 8 consecutive points, as a sum.

  Along the contraction axis the accumulator block is reset at the first point of a run (the point whose number is a
  multiple of 8) to the zero block plus that point's product, and at each of the next 7 points the point's product is added
  to what the point before left. At the last point of the run (number ≡ 7 mod 8) the accumulator at `(p, q)` is therefore the
  sum, over the 8 points `kb` of the run and the 512 contracted positions `kk` of a block, of the product of the left block
  of point `kb` at `(p, kk)` with the right block of point `kb` at `(q, kk)`.
-/
import proofs.«152050_j33732673143833_2_alg».proof.Proof.PayFfn
import Idealize.ShloMosaic.Lib.Pipeline.Value

noncomputable section

open scoped BigOperators

namespace Cert.KernelIdeal.Val

open Idealize.ShloMosaic Idealize.ShloMosaic.ValueIdx Cert.KernelIdeal Cert.KernelIdeal.Gen

section Fold

variable {N : ℕ} (A0 : (n : ℕ) → n < N → FVec Ideal S2048x512 .bf16) (A1 : (n : ℕ) → n < N → FVec Ideal S1024x512 .bf16)

/-- The addend of point `n` at an index of the accumulator block: the 512-term product sum of the point's two blocks
    (zero past the grid, where it is never used). -/
def addend (n : ℕ) (i : S2048x1024.Idx) : EReal :=
  if h : n < N then ∑ kk : Fin 512, A0 n h (ix2 (i 0) kk) * A1 n h (ix2 (i 1) kk) else 0

/-- A block-valued quantity that is reset to `0 + product` at the multiples of 8 and adds the point's product elsewhere
    is, at a point `t ≡ 7 (mod 8)`, the sum of the products of the 8 points of `t`'s run. -/
theorem acc_fold (f : (n : ℕ) → n < N → FVec Ideal S2048x1024 .f32)
    (h0 : ∀ (n : ℕ) (h : n < N), n % 8 = 0 → f n h = k1_pay2 (F := Ideal) (A0 n h) (A1 n h) (k1_pay1 (F := Ideal)))
    (hs : ∀ (n : ℕ) (h : n + 1 < N), ¬(n + 1) % 8 = 0 →
      f (n + 1) h = k1_pay2 (F := Ideal) (A0 (n + 1) h) (A1 (n + 1) h) (f n (Nat.lt_of_succ_lt h)))
    (t : ℕ) (ht : t < N) (h7 : t % 8 = 7) (p : Fin 2048) (q : Fin 1024) :
    f t ht (ix2 p q)
      = ∑ kb : Fin 8, ∑ kk : Fin 512,
          A0 (8 * (t / 8) + kb.val) (by have := kb.isLt; omega) (ix2 p kk)
            * A1 (8 * (t / 8) + kb.val) (by have := kb.isLt; omega) (ix2 q kk) := by
  have hrun : 8 * (t / 8) + t % 8 < N := by omega
  rw [Pipeline.eq_accAt_of_mod f 8 (fun n h => k1_pay2 (F := Ideal) (A0 n h) (A1 n h) (k1_pay1 (F := Ideal)))
    (fun n h acc => k1_pay2 (F := Ideal) (A0 n h) (A1 n h) acc) h0 hs (by omega) t ht hrun]
  have hfold := Pipeline.accAt_add_apply (ι := S2048x1024.Idx) (β := EReal)
    (fun n h => k1_pay2 (F := Ideal) (A0 n h) (A1 n h) (k1_pay1 (F := Ideal)))
    (fun n h acc => k1_pay2 (F := Ideal) (A0 n h) (A1 n h) acc) (fun _ => 0) (addend A0 A1) (8 * (t / 8)) 7
    (fun h i => by
      obtain ⟨p', q', rfl⟩ : ∃ (p' : Fin 2048) (q' : Fin 1024), i = ix2 p' q' := ⟨i 0, i 1, eq_ix2 i⟩
      show k1_pay2 (F := Ideal) (A0 _ h) (A1 _ h) (k1_pay1 (F := Ideal)) (ix2 p' q') = 0 + addend A0 A1 _ (ix2 p' q')
      rw [pay_acc, pay_zero, addend, dif_pos h])
    (fun n h acc i _ _ => by
      obtain ⟨p', q', rfl⟩ : ∃ (p' : Fin 2048) (q' : Fin 1024), i = ix2 p' q' := ⟨i 0, i 1, eq_ix2 i⟩
      show k1_pay2 (F := Ideal) (A0 n h) (A1 n h) acc (ix2 p' q') = acc (ix2 p' q') + addend A0 A1 n (ix2 p' q')
      rw [pay_acc, addend, dif_pos h])
    (t % 8) (by omega) hrun (ix2 p q)
  rw [hfold, zero_add, h7, Finset.sum_range]
  refine Finset.sum_congr rfl fun kb _ => ?_
  rw [addend, dif_pos (by have := kb.isLt; omega)]

end Fold

end Cert.KernelIdeal.Val

end
-- ==== Proof.KIValFfn.lean ====
/-
  What the second region leaves in its output array, at the exact instance. Point `t = (i·4 + j)·8 + k` of the 4 × 4 × 8 grid
  reads block `(i, k)` of the scaled rows (2048 × 512), block `(j, k)` of the weights (1024 × 512) and block `(0, j)` of the
  bias row (1 × 1024), and at `k = 7` writes back block `(i, j)` of the output (2048 × 1024). Along `k` the accumulator sums the
  8 block products, so the block written back at `(p, q)` is `max ((∑_kb ∑_kk xn(2048 i + p, 512 kb + kk) · w(1024 j + q, 512 kb + kk))
  + b(0, 1024 j + q)) 0`: the blocked arrangement of the product with the transposed weights. The 16 output blocks tile the array.
-/
import proofs.«152050_j33732673143833_2_alg».proof.Proof.KIFfnPieces
import proofs.«152050_j33732673143833_2_alg».proof.Proof.Spec
import proofs.«152050_j33732673143833_2_alg».proof.Proof.PayFfn
import proofs.«152050_j33732673143833_2_alg».proof.Proof.KIValFfnFold
import Idealize.ShloMosaic.Lib.Pipeline.Value

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The product of an `[8192, 4096]` array with the transpose of a `[4096, 4096]` one, summed by 8 blocks of 512, plus a
    bias row, clamped below at zero. -/
def Gk (xn : S8192x4096.Idx → EReal) (w : S4096x4096.Idx → EReal) (b : S1x4096.Idx → EReal) : S8192x4096.Idx → EReal :=
  fun i => max ((∑ kb : Fin 8, ∑ kk : Fin 512, xn (ix2 (i 0) (kidx kb kk)) * w (ix2 (i 1) (kidx kb kk)))
    + b (ix2 0 (i 1))) 0

theorem Gk_apply (xn : S8192x4096.Idx → EReal) (w : S4096x4096.Idx → EReal) (b : S1x4096.Idx → EReal)
    (r : Fin 8192) (s : Fin 4096) :
    Gk xn w b (ix2 r s)
      = max ((∑ kb : Fin 8, ∑ kk : Fin 512, xn (ix2 r (kidx kb kk)) * w (ix2 s (kidx kb kk))) + b (ix2 0 s)) 0 := rfl

/-- The four windows' block indices at point `t = (i·4 + j)·8 + k`, in closed form (decided over the 128 points):
    `(i, k)`, `(j, k)`, `(0, j)`, `(i, j)`. -/
theorem idx1 : ∀ t : Fin cfg1.N,
    win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = 0 ∧ win1_2.index t (1 : Fin 2) = t.val / 8 % 4
    ∧ win1_3.index t (0 : Fin 2) = t.val / 32 ∧ win1_3.index t (1 : Fin 2) = t.val / 8 % 4 :=
  (by decide +kernel : ∀ t : Fin grid1.N, _)

/-- The scaled rows' block at point `n`, read at `(p, kk)`, is the array's entry `(2048 (n / 32) + p, 512 (n % 8) + kk)`. -/
theorem blk1_0_read (c : Dev nD) (n : ℕ) (hn : n < cfg1.N) (p : Fin 2048) (kk : Fin 512) (r : Fin 8192) (k : Fin 4096)
    (hr : r.val = n / 32 * 2048 + p.val) (hk : k.val = n % 8 * 512 + kk.val) :
    (iblk1 V c 0 ⟨n, hn⟩ : S2048x512.Idx → EReal) (ix2 p kk) = (V c main_v0 : S8192x4096.Idx → EReal) (ix2 r k) := by
  obtain ⟨e0, e1, -⟩ := idx1 ⟨n, hn⟩
  dsimp only at e0 e1
  show V c main_v0 (((cfg1.win 0).blk ⟨n, hn⟩).view.emb (ix2 p kk)) = V c main_v0 _
  refine congrArg _ (funext fun a => Fin.ext ?_)
  match a with
  | ⟨0, _⟩ => show win1_0.index ⟨n, hn⟩ (0 : Fin 2) * 2048 + 1 * p.val = r.val; omega
  | ⟨1, _⟩ => show win1_0.index ⟨n, hn⟩ (1 : Fin 2) * 512 + 1 * kk.val = k.val; omega

/-- The weights' block at point `n`, read at `(q, kk)`, is the array's entry `(1024 (n / 8 % 4) + q, 512 (n % 8) + kk)`. -/
theorem blk1_1_read (c : Dev nD) (n : ℕ) (hn : n < cfg1.N) (q : Fin 1024) (kk : Fin 512) (s : Fin 4096) (k : Fin 4096)
    (hs : s.val = n / 8 % 4 * 1024 + q.val) (hk : k.val = n % 8 * 512 + kk.val) :
    (iblk1 V c 1 ⟨n, hn⟩ : S1024x512.Idx → EReal) (ix2 q kk) = (V c main_v1 : S4096x4096.Idx → EReal) (ix2 s k) := by
  obtain ⟨-, -, e0, e1, -⟩ := idx1 ⟨n, hn⟩
  dsimp only at e0 e1
  show V c main_v1 (((cfg1.win 1).blk ⟨n, hn⟩).view.emb (ix2 q kk)) = V c main_v1 _
  refine congrArg _ (funext fun a => Fin.ext ?_)
  match a with
  | ⟨0, _⟩ => show win1_1.index ⟨n, hn⟩ (0 : Fin 2) * 1024 + 1 * q.val = s.val; omega
  | ⟨1, _⟩ => show win1_1.index ⟨n, hn⟩ (1 : Fin 2) * 512 + 1 * kk.val = k.val; omega

/-- The bias row's block at point `n`, read at `(0, q)`, is the row's entry `(0, 1024 (n / 8 % 4) + q)`. -/
theorem blk1_2_read (c : Dev nD) (n : ℕ) (hn : n < cfg1.N) (q : Fin 1024) (s : Fin 4096)
    (hs : s.val = n / 8 % 4 * 1024 + q.val) :
    (iblk1 V c 2 ⟨n, hn⟩ : S1x1024.Idx → EReal) (ix2 0 q) = (V c main_v2 : S1x4096.Idx → EReal) (ix2 0 s) := by
  obtain ⟨-, -, -, -, e0, e1, -⟩ := idx1 ⟨n, hn⟩
  dsimp only at e0 e1
  show V c main_v2 (((cfg1.win 2).blk ⟨n, hn⟩).view.emb (ix2 0 q)) = V c main_v2 _
  refine congrArg _ (funext fun a => Fin.ext ?_)
  match a with
  | ⟨0, _⟩ => show win1_2.index ⟨n, hn⟩ (0 : Fin 2) * 1 + 1 * 0 = 0; omega
  | ⟨1, _⟩ => show win1_2.index ⟨n, hn⟩ (1 : Fin 2) * 1024 + 1 * q.val = s.val; omega

/-- At the last point of a run along the contraction axis, the output's buffer at `(p, q)` is the blocked product of
    the arrays' rows `2048 (t / 32) + p` and `1024 (t / 8 % 4) + q`, plus the bias, clamped below at zero. -/
theorem out_at_last (c : Dev nD) (t : Fin cfg1.N) (h7 : t.val % 8 = 7) (p : Fin 2048) (q : Fin 1024)
    (r : Fin 8192) (s : Fin 4096) (hr : r.val = t.val / 32 * 2048 + p.val) (hs : s.val = t.val / 8 % 4 * 1024 + q.val) :
    (outsAt1 V c t.val t.isLt).1 (ix2 p q) = Gk (V c main_v0) (V c main_v1) (V c main_v2) (ix2 r s) := by
  have hN : t.val < 128 := lt_of_lt_of_eq t.isLt N_1
  rw [out_last V c t h7, pay_out,
    acc_fold (fun n h => iblk1 V c 0 ⟨n, h⟩) (fun n h => iblk1 V c 1 ⟨n, h⟩) (fun n h => (outsAt1 V c n h).2)
      (fun n h h0 => acc_first V c ⟨n, h⟩ h0) (fun n h hne => acc_next V c ⟨n + 1, h⟩ hne) t.val t.isLt h7 p q,
    Gk_apply]
  refine congrArg (fun z => max z 0) ?_
  refine congrArg₂ (· + ·) ?_ (blk1_2_read V c t.val t.isLt q s hs)
  refine Finset.sum_congr rfl fun kb _ => Finset.sum_congr rfl fun kk _ => ?_
  have hkb : kb.val < 8 := kb.isLt
  have hkk : kk.val < 512 := kk.isLt
  rw [blk1_0_read V c (8 * (t.val / 8) + kb.val) (by have := t.isLt; omega) p kk r (kidx kb kk)
      (by rw [hr]; omega) (by show kb.val * 512 + kk.val = _; omega),
    blk1_1_read V c (8 * (t.val / 8) + kb.val) (by have := t.isLt; omega) q kk s (kidx kb kk)
      (by rw [hs]; omega) (by show kb.val * 512 + kk.val = _; omega)]

/-- What a point that writes back writes is its block of the blocked product. -/
theorem flushed1_eq (c : Dev nD) (t : Fin cfg1.N) (hf : (cfg1.win 3).flush t = true) :
    (dat1 V c).flushed 3 t
      = ((cfg1.win 3).blk t).view.read (Elt Ideal) (Gk (V c main_v0) (V c main_v1) (V c main_v2)) := by
  have h7 : t.val % 8 = 7 := (flush1_3 t).mp hf
  have hN : t.val < 128 := lt_of_lt_of_eq t.isLt N_1
  obtain ⟨-, -, -, -, -, -, e0, e1⟩ := idx1 t
  show (cfg1.win 3).cut (grid1.coords t) ((dat1 V c).after 3 t) = _
  rw [after1_3]
  funext j
  obtain ⟨p, q, rfl⟩ : ∃ (p : Fin 2048) (q : Fin 1024), j = ix2 p q := ⟨j 0, j 1, eq_ix2 j⟩
  have hp : p.val < 2048 := p.isLt
  have hq : q.val < 1024 := q.isLt
  show (outsAt1 V c t.val t.isLt).1 (ix2 p q)
    = Gk (V c main_v0) (V c main_v1) (V c main_v2) (((cfg1.win 3).blk t).view.emb (ix2 p q))
  refine (out_at_last V c t h7 p q ⟨t.val / 32 * 2048 + p.val, by omega⟩ ⟨t.val / 8 % 4 * 1024 + q.val, by omega⟩
    rfl rfl).trans ?_
  refine congrArg _ (funext fun a => Fin.ext ?_)
  match a with
  | ⟨0, _⟩ => show t.val / 32 * 2048 + p.val = win1_3.index t (0 : Fin 2) * 2048 + 1 * p.val; omega
  | ⟨1, _⟩ => show t.val / 8 % 4 * 1024 + q.val = win1_3.index t (1 : Fin 2) * 1024 + 1 * q.val; omega

/-- An index of the array is in point t's output block iff each coordinate is in the block's range on its axis. -/
theorem mem_blk1 (t : Fin cfg1.N) (i : S8192x4096.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v3).slice (win1_3.rect t)).set ↔ _
  rw [View.set_slice_whole, Rect.mem_set_unit]
  exact Iff.rfl

/-- Every output block is written back by some point: block `(q0, q1)` by the last point of its run. -/
theorem idx_onto1 : ∀ (q0 : Fin 4) (q1 : Fin 4), ∃ t : Fin cfg1.N, t.val % 8 = 7 ∧ win1_3.index t = ![q0.val, q1.val] :=
  (by decide +kernel : ∀ (q0 : Fin 4) (q1 : Fin 4), ∃ t : Fin grid1.N, t.val % 8 = 7 ∧ win1_3.index t = ![q0.val, q1.val])

/-- Every index of the array is in the block some point writes back: row r, column s is in block (r / 2048, s / 1024). -/
theorem cover1 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, h7, ht⟩ := idx_onto1 ⟨(i 0).val / 2048, by omega⟩ ⟨(i 1).val / 1024, by omega⟩
  have q0 : win1_3.index t (0 : Fin 2) = (i 0).val / 2048 := congrFun ht 0
  have q1 : win1_3.index t (1 : Fin 2) = (i 1).val / 1024 := congrFun ht 1
  refine ⟨t, (flush1_3 t).mpr h7, ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

/-- The output array after the region: the blocked product of the arrays the region found, plus the bias, clamped. -/
theorem final1 (c : Dev nD) : (dat1 V c).arrAt 3 cfg1.N = Gk (V c main_v0) (V c main_v1) (V c main_v2) :=
  (dat1 V c).arrAt_eq_of_cover 3 (Gk (V c main_v0) (V c main_v1) (V c main_v2)) (fun t hf => flushed1_eq V c t hf) cover1

end Cert.KernelIdeal.Val

end
-- ==== Proof.KIValFfnSpec.lean ====
/-
  The blocked product of the scaled rows is the specification: when every entry of `xn` is the entry of `x` times the
  reciprocal of its row's denominator, and the bias row `b'` holds the bias vector `b`, the blocked arrangement
  `max ((∑_kb ∑_kk xn(p, 512 kb + kk) · W(q, 512 kb + kk)) + b'(0, q)) 0` is `G x W b` at every index.
-/
import proofs.«152050_j33732673143833_2_alg».proof.Proof.KIValFfn

noncomputable section

open scoped BigOperators

namespace Cert.KernelIdeal.Val

open Idealize.ShloMosaic Idealize.ShloMosaic.ValueIdx Cert.KernelIdeal

/-- The blocked product of the scaled rows, plus the bias row, clamped, is the specification. -/
theorem Gk_scaled_eq_G (x xn : S8192x4096.Idx → EReal) (W : S4096x4096.Idx → EReal) (b : S4096.Idx → EReal)
    (b' : S1x4096.Idx → EReal)
    (hxn : ∀ (p : Fin 8192) (k : Fin 4096), xn (ix2 p k) = x (ix2 p k) * Ideal.div 1 (den x p))
    (hb : ∀ q : Fin 4096, b' (ix2 0 q) = b (ix1 q)) :
    Gk xn W b' = G x W b := by
  funext i
  obtain ⟨p, q, rfl⟩ : ∃ (p : Fin 8192) (q : Fin 4096), i = ix2 p q := ⟨i 0, i 1, eq_ix2 i⟩
  rw [Gk_apply, ← blocked_eq_G, hb q]
  simp only [hxn]

end Cert.KernelIdeal.Val

end
-- ==== Proof.KIValue.lean ====
/-
  The program's result is the specification. The matrix-product region's output array is the blocked product of the
  arrays it finds, plus the bias row, clamped below at zero; the first of those arrays is the argument's rows scaled by
  the reciprocals of their denominators, the second the weight (rounding to bf16 is the identity on extended reals), the
  third the bias as one row. Multiplying by the reciprocal of a nonzero denominator is dividing by it, and a sum over
  4096 positions is the sum over 8 blocks of 512.
-/
import proofs.«152050_j33732673143833_2_alg».proof.Proof.KIInst
import proofs.«152050_j33732673143833_2_alg».proof.Proof.KIHost
import proofs.«152050_j33732673143833_2_alg».proof.Proof.KIValNorm
import proofs.«152050_j33732673143833_2_alg».proof.Proof.KIValFfn
import proofs.«152050_j33732673143833_2_alg».proof.Proof.KIValFfnSpec
import Idealize.ShloMosaic.Lib.ValueLayout

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Val

variable (m : (ℓ : Loc nD τ sig) → Buf (Elt Ideal) ℓ) (ρ : Dev nD → PrngReg)

/-- The first input array of the matrix-product region: the argument's scaled rows. -/
theorem in_xn (c : Dev nD) :
    (V2 m ρ c main_v0 : S8192x4096.Idx → EReal) = Xn (m ((c.tc : Thread nD τ).loc main_arg0)) :=
  (V2_main_v0 m ρ c).trans (final0 (V0 m ρ) c)

/-- The second: the weight, entry by entry. -/
theorem in_w (c : Dev nD) (j : S4096x4096.Idx) :
    (V2 m ρ c main_v1 : S4096x4096.Idx → EReal) j = m ((c.tc : Thread nD τ).loc main_arg1) j := by
  rw [V2_main_v1, W1_main_arg1]
  rfl

/-- The third: the bias as one row. -/
theorem in_b (c : Dev nD) (q : Fin 4096) :
    (V2 m ρ c main_v2 : S1x4096.Idx → EReal) (ix2 (0 : Fin 1) q) = m ((c.tc : Thread nD τ).loc main_arg2) (ix1 q) := by
  rw [V2_main_v2, W1_main_arg2]
  exact shapeCast_a_1a_apply _ _ _ _

/-- The result array after the run is the specification of the three arguments. -/
theorem kernel_value (c : Dev nD) :
    (dat1 (V2 m ρ) c).arrAt 3 cfg1.N
      = G (m ((c.tc : Thread nD τ).loc main_arg0)) (m ((c.tc : Thread nD τ).loc main_arg1)) (m ((c.tc : Thread nD τ).loc main_arg2)) := by
  refine (final1 (V2 m ρ) c).trans ?_
  have ew : (V2 m ρ c main_v1 : S4096x4096.Idx → EReal) = m ((c.tc : Thread nD τ).loc main_arg1) := funext (in_w m ρ c)
  refine (congrArg (fun w => Gk (V2 m ρ c main_v0) w (V2 m ρ c main_v2)) ew).trans ?_
  exact Gk_scaled_eq_G (m ((c.tc : Thread nD τ).loc main_arg0)) (V2 m ρ c main_v0) (m ((c.tc : Thread nD τ).loc main_arg1))
    (m ((c.tc : Thread nD τ).loc main_arg2)) (V2 m ρ c main_v2)
    (fun p k => (congrFun (in_xn m ρ c) (ix2 p k)).trans (Xn_apply _ p k)) (fun q => in_b m ρ c q)

end Cert.KernelIdeal.Hand

end
-- ==== Proof.RefIsSpec.lean ====
/-
  The reference computes the specification: read one operation at a time at an index `(p, q)`, the reference's result
  is `max ((∑ₖ x(p,k) / den x p · W(q,k)) + b(q)) 0`. The row's sum of squares is the host's sum from the initial value
  `0`; the norm plus `ε`, kept as a column and broadcast along the row, is `den x p` at every column; the bias, kept as a
  row and broadcast along the columns, is `b(q)` at every row.
-/
import proofs.«152050_j33732673143833_2_alg».proof.Proof.Gen.ReferenceIdeal.Read
import proofs.«152050_j33732673143833_2_alg».proof.Proof.Spec

noncomputable section

open scoped BigOperators

namespace Cert.KernelIdeal.Val

open Idealize.ShloMosaic Idealize.ShloMosaic.ValueIdx Cert.ReferenceIdeal Cert.ReferenceIdeal.Read

/-- The reference's broadcast denominator, read at `(p, k)`, is the row's denominator, whatever the column `k`. -/
theorem ref_den (x : FVec Ideal S8192x4096 .f32) (p : Fin 8192) (k : Fin 4096) :
    val_main_v6 (F := Ideal) x (ix2 p k) = den x p := by
  rw [val_main_v6_apply, val_main_v5_apply, val_main_v3_apply, val_main_v2_apply, val_main_v1_apply, val_main_v4_apply,
    val_main_cst_0_apply, val_main_cst_apply]
  simp only [val_main_v0_apply, Ideal.hostUnary_sqrt_def, Ideal.addf_def, Ideal.mulf_def, Ideal.ofBits_def,
    Ideal.ofBits_zero_f32, zero_add]
  have e : ∀ k' : Fin 4096, idx_main_v1 (idx_main_v2 (idx_main_v6 (ix2 p k))) k' = ix2 p k' := fun k' =>
    funext fun a => Fin.ext (by match a with | ⟨0, _⟩ => rfl | ⟨1, _⟩ => rfl)
  simp only [e]
  rfl

/-- The reference's result array is the specification. -/
theorem ref_is_G (x : FVec Ideal S8192x4096 .f32) (W : FVec Ideal S4096x4096 .f32) (b : FVec Ideal S4096 .f32) :
    val_main_v12 (F := Ideal) x W b = G x W b := by
  funext i
  obtain ⟨p, q, rfl⟩ : ∃ (p : Fin 8192) (q : Fin 4096), i = ix2 p q := ⟨i 0, i 1, eq_ix2 i⟩
  rw [val_main_v12_apply, val_main_v11_apply, val_main_v8_apply, val_main_v10_apply, val_main_v9_apply,
    val_main_call0_v0_apply, val_main_call0_cst_apply, G_apply]
  have el : ∀ k : Fin 4096, lidx_main_v8 (ix2 p q) k = ix2 p k := fun k =>
    funext fun a => Fin.ext (by match a with | ⟨0, _⟩ => rfl | ⟨1, _⟩ => rfl)
  have er : ∀ k : Fin 4096, ridx_main_v8 (ix2 p q) k = ix2 q k := fun k =>
    funext fun a => Fin.ext (by match a with | ⟨0, _⟩ => rfl | ⟨1, _⟩ => rfl)
  have eb : idx_main_v9 (idx_main_v10 (ix2 p q)) = ix1 q :=
    funext fun a => Fin.ext (by match a with | ⟨0, _⟩ => rfl)
  simp only [el, er, eb, val_main_v7_apply, ref_den, Ideal.hostDivf_def, Ideal.addf_def, Ideal.maximumf_def,
    Ideal.ofBits_def, Ideal.ofBits_zero_f32]

end Cert.KernelIdeal.Val

end
-- ==== Proof.lean ====
/-
  The certificate of a two-stage layer against its one-line definition: the rows of x scaled to unit Euclidean norm
  (plus epsilon in the denominator), multiplied by the transpose of W, the bias added, negatives clamped to zero.
  The kernel runs two regions: the first scales each block of 256 rows by the reciprocal of its rows' denominators; the
  second accumulates, over 8 blocks of 512 columns, the products of a [2048, 512] block of scaled rows with a
  [1024, 512] block of the weight into a scratch accumulator, and at the last block adds the bias and clamps. Both
  programs run to the end without a fault and leave their arguments unchanged (at the word level and at the exact
  instance); no idealising rewrite was made; and at the exact instance, where floats are extended reals, both results are
  the one function G of the arguments: the reciprocal of a nonzero denominator times a number is the quotient, sums
  regroup freely, and changes of float format are the identity.
-/
import proofs.«152050_j33732673143833_2_alg».proof.Defs
import proofs.«152050_j33732673143833_2_alg».proof.Proof.Gen.Kernel
import proofs.«152050_j33732673143833_2_alg».proof.Proof.Gen.KernelIdeal
import proofs.«152050_j33732673143833_2_alg».proof.Proof.Gen.ReferenceIdeal
import proofs.«152050_j33732673143833_2_alg».proof.Proof.Gen.Pre_finite_inputs
import proofs.«152050_j33732673143833_2_alg».proof.Proof.Gen.ReferenceIdeal.Run
import proofs.«152050_j33732673143833_2_alg».proof.Proof.Gen.ReferenceIdeal.Read
import proofs.«152050_j33732673143833_2_alg».proof.Proof.KBInst
import proofs.«152050_j33732673143833_2_alg».proof.Proof.KIValue
import proofs.«152050_j33732673143833_2_alg».proof.Proof.RefIsSpec
import Idealize.ShloMosaic.Adequacy
import Idealize.ShloMosaic.Init

noncomputable section

namespace Cert.Proof

open Idealize.ShloMosaic Idealize.SL.Sem

/-- The word-level program runs and keeps its arguments. -/
theorem frame_k : Cert.frame_Kernel (hKernel := Cert.Kernel.Gen.facts) (hPre_finite_inputs := Cert.Pre_finite_inputs.Gen.facts) :=
  fun m ρ _ => Cert.Kernel.Hand.frame_all (F := Bits) m ρ

/-- So does the program read at the exact instance. -/
theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

/-- And the reference: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- No operation was rewritten when the program was read at the exact instance. -/
theorem preserves : Cert.preserves_Kernel_KernelIdeal := trivial

/-- From memories agreeing on the arguments both programs end with the result array at G of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.kernel_value m ρ c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.KernelIdeal.Val.ref_is_G _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
